-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S2x4096x128 : Shape := ⟨3, ![2, 4096, 128]⟩
abbrev S4096x128 : Shape := ⟨2, ![4096, 128]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2x4096x128 : S_.BroadcastsInDim S2x4096x128 (![] : Fin 0 → Fin S2x4096x128.rank)
  reducesTo_S2x4096x128_S_d0_1_2 : S2x4096x128.ReducesTo [0, 1, 2] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S4096x128 .f32) (main_v13 : IVec S_ 1) (main_v16 : IVec S2x4096x128 1) : IVec S_ 1 :=
  let main_c_5 : IVec S_ 1 := constantI S_ 1 1#1
  let main_v17 : IVec S_ 1 := (fun x v => Host.reduce IntOp.andi x v reducesTo_S2x4096x128_S_d0_1_2 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  main_v23

def fn {F : FTy → Type} [FloatOps F] (main_arg0 : FVec F S2x4096x4096 .f32) (main_arg1 : FVec F S4096x4096 .f32) (main_arg2 : FVec F S4096 .f32) (main_arg3 : FVec F S2x4096x128 .f32) (main_arg4 : FVec F S4096x128 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2x4096x128 .f32 := Host.absf main_arg3
  let main_cst_4 : FVec F S_ .f32 := constant S_ .f32 0x7F800000#32
  let main_v15 : FVec F S2x4096x128 .f32 := broadcastInDim S2x4096x128 ![] bcast_S_S2x4096x128 main_cst_4
  let main_v16 : IVec S2x4096x128 1 := cmpf .olt main_v14 main_v15
  fn_part1 (F := F) main_arg4 main_v13 main_v16
-- ==== Kernel.lean ====
abbrev S2x4096x4096 : Shape := ⟨3, ![2, 4096, 4096]⟩
abbrev S4096x4096 : Shape := ⟨2, ![4096, 4096]⟩
abbrev S4096 : Shape := ⟨1, ![4096]⟩
abbrev S2x4096x128 : Shape := ⟨3, ![2, 4096, 128]⟩
abbrev S4096x128 : Shape := ⟨2, ![4096, 128]⟩
abbrev S1x4096 : Shape := ⟨2, ![1, 4096]⟩
abbrev S1x128x4096 : Shape := ⟨3, ![1, 128, 4096]⟩
abbrev S256x4096 : Shape := ⟨2, ![256, 4096]⟩
abbrev S1x256 : Shape := ⟨2, ![1, 256]⟩
abbrev S1x128x128 : Shape := ⟨3, ![1, 128, 128]⟩
abbrev S256x128 : Shape := ⟨2, ![256, 128]⟩
abbrev S1x128x256 : Shape := ⟨3, ![1, 128, 256]⟩
abbrev S128x4096 : Shape := ⟨2, ![128, 4096]⟩
abbrev S128x128 : Shape := ⟨2, ![128, 128]⟩
abbrev S128x128x1 : Shape := ⟨3, ![128, 128, 1]⟩
abbrev S128x128x32 : Shape := ⟨3, ![128, 128, 32]⟩
abbrev S256x128x1 : Shape := ⟨3, ![256, 128, 1]⟩
abbrev S256x128x32 : Shape := ⟨3, ![256, 128, 32]⟩
abbrev S128x256 : Shape := ⟨2, ![128, 256]⟩

abbrev nBuf : Space → Nat
  | .hbm => 7
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S2x4096x128, .f32⟩
  | .hbm, ⟨4, _⟩ => ⟨S4096x128, .f32⟩
  | .hbm, ⟨5, _⟩ => ⟨S1x4096, .f32⟩
  | .hbm, ⟨6, _⟩ => ⟨S2x4096x4096, .f32⟩
  | .local _ .vmem, ⟨0, _⟩ => ⟨S1x128x4096, .f32⟩
  | .local _ .vmem, ⟨1, _⟩ => ⟨S1x128x4096, .f32⟩
  | .local _ .vmem, ⟨2, _⟩ => ⟨S256x4096, .f32⟩
  | .local _ .vmem, ⟨3, _⟩ => ⟨S256x4096, .f32⟩
  | .local _ .vmem, ⟨4, _⟩ => ⟨S1x256, .f32⟩
  | .local _ .vmem, ⟨5, _⟩ => ⟨S1x256, .f32⟩
  | .local _ .vmem, ⟨6, _⟩ => ⟨S1x128x128, .f32⟩
  | .local _ .vmem, ⟨7, _⟩ => ⟨S1x128x128, .f32⟩
  | .local _ .vmem, ⟨8, _⟩ => ⟨S256x128, .f32⟩
  | .local _ .vmem, ⟨9, _⟩ => ⟨S256x128, .f32⟩
  | .local _ .vmem, ⟨10, _⟩ => ⟨S1x128x256, .f32⟩
  | .local _ .vmem, ⟨11, _⟩ => ⟨S1x128x256, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S4096_S1x4096 : S4096.ShapeCasts S1x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S256x4096_S256x4096_0_0 : ∀ a, (![0, 0] : Fin 2 → Nat) a + S256x4096.size a ≤ S256x4096.size a
  h_S256x4096 : 0 < S256x4096.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S256x128_S256x128_0_0 : ∀ a, (![0, 0] : Fin 2 → Nat) a + S256x128.size a ≤ S256x128.size a
  h_S256x128 : 0 < S256x128.numel
  shapeCasts_S128x128_S128x128x1 : S128x128.ShapeCasts S128x128x1
  shapeCasts_S128x128x1_S128x128x1 : S128x128x1.ShapeCasts S128x128x1
  broadcasts_S128x128x1_S128x128x32 : S128x128x1.Broadcasts S128x128x32
  shapeCasts_S128x128x32_S128x4096 : S128x128x32.ShapeCasts S128x4096
  shapeCasts_S256x128_S256x128x1 : S256x128.ShapeCasts S256x128x1
  shapeCasts_S256x128x1_S256x128x1 : S256x128x1.ShapeCasts S256x128x1
  broadcasts_S256x128x1_S256x128x32 : S256x128x1.Broadcasts S256x128x32
  shapeCasts_S256x128x32_S256x4096 : S256x128x32.ShapeCasts S256x4096
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  dot_S128x4096_S256x4096_S128x256_1_1_0_0_n_n_wf : DotDims.WF S128x4096 S256x4096 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S2x4096x4096.size a
  hwx0_0 : ∀ i : grid0.Coords, EltTy.bits .f32 = 32 ∨ (Rect.block (s := S2x4096x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x4096x128.size a
  hwx0_3 : ∀ i : grid0.Coords, EltTy.bits .f32 = 32 ∨ (Rect.block (s := S2x4096x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S4096x128.size a
  hwx0_4 : ∀ i : grid0.Coords, EltTy.bits .f32 = 32 ∨ (Rect.block (s := S4096x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S2x4096x4096.size a
  hwx0_5 : ∀ i : grid0.Coords, EltTy.bits .f32 = 32 ∨ (Rect.block (s := S2x4096x4096) S1x128x256.size (cc0_transform_5 i) (hinb0_5 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S2x4096x128 : Shape := ⟨3, ![2, 4096, 128]⟩
abbrev S4096x128 : Shape := ⟨2, ![4096, 128]⟩
abbrev S2x4096x128x32 : Shape := ⟨4, ![2, 4096, 128, 32]⟩
abbrev S2x4096x128x1 : Shape := ⟨4, ![2, 4096, 128, 1]⟩
abbrev S4096x128x32 : Shape := ⟨3, ![4096, 128, 32]⟩
abbrev S4096x128x1 : Shape := ⟨3, ![4096, 128, 1]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S2x4096x128, .f32⟩
  | .hbm, ⟨4, _⟩ => ⟨S4096x128, .f32⟩
  | .hbm, ⟨5, _⟩ => ⟨S2x4096x128x32, .f32⟩
  | .hbm, ⟨6, _⟩ => ⟨S2x4096x128x1, .f32⟩
  | .hbm, ⟨7, _⟩ => ⟨S2x4096x128x32, .f32⟩
  | .hbm, ⟨8, _⟩ => ⟨S2x4096x128x32, .f32⟩
  | .hbm, ⟨9, _⟩ => ⟨S2x4096x4096, .f32⟩
  | .hbm, ⟨10, _⟩ => ⟨S4096x128x32, .f32⟩
  | .hbm, ⟨11, _⟩ => ⟨S4096x128x1, .f32⟩
  | .hbm, ⟨12, _⟩ => ⟨S4096x128x32, .f32⟩
  | .hbm, ⟨13, _⟩ => ⟨S4096x128x32, .f32⟩
  | .hbm, ⟨14, _⟩ => ⟨S4096x4096, .f32⟩
  | .hbm, ⟨15, _⟩ => ⟨S2x4096x4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S2x4096x4096_S2x4096x128x32 : S2x4096x4096.ShapeCasts S2x4096x128x32
  bcast_S2x4096x128_S2x4096x128x1_0_1_2 : S2x4096x128.BroadcastsInDim S2x4096x128x1 (![0, 1, 2] : Fin 3 → Fin S2x4096x128x1.rank)
  bcast_S2x4096x128x1_S2x4096x128x32_0_1_2_3 : S2x4096x128x1.BroadcastsInDim S2x4096x128x32 (![0, 1, 2, 3] : Fin 4 → Fin S2x4096x128x32.rank)
  shapeCasts_S2x4096x128x32_S2x4096x4096 : S2x4096x128x32.ShapeCasts S2x4096x4096
  shapeCasts_S4096x4096_S4096x128x32 : S4096x4096.ShapeCasts S4096x128x32
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.LibGroupScale.lean ====
/-
  One scale per run of 32 consecutive columns, spread over the columns: general lemmas, for any element type and any
  number of rows R.

  A matrix `s` of R rows and 128 columns is given a trailing axis of extent one, repeated 32 times along it, and the
  last two axes are merged: the result has R rows and 4096 columns, and its entry at row r, column k is
  `s` at row r, column k / 32. Each step is read at coordinates here, and then the chain.
-/
import Idealize.ShloMosaic.Lib.Pipeline.Value
import Idealize.ShloMosaic.Lib.ValueIdx

namespace Cert.LibGroupScale

open Idealize.ShloMosaic Idealize.ShloMosaic.ValueIdx

variable {α : Type}

/-- A matrix of R rows and G columns cast to R × G × 1 reads, at (r, g, u), the matrix at (r, g). -/
theorem shapeCast_ab_ab1_apply {R G : ℕ} (s : (⟨2, ![R, G]⟩ : Shape).Idx → α)
    (h : (⟨2, ![R, G]⟩ : Shape).ShapeCasts ⟨3, ![R, G, 1]⟩) (r : Fin R) (g : Fin G) (u : Fin 1) :
    shapeCast ⟨3, ![R, G, 1]⟩ s h (ix3 r g u) = s (ix2 r g) :=
  shapeCast_apply s h _ _ (by
    have hu : u.val = 0 := by omega
    rw [Shape.rowMajor_val_two, Shape.rowMajor_val_three]
    show r.val * G + g.val = (r.val * G + g.val) * 1 + u.val
    rw [hu, Nat.mul_one, Nat.add_zero])

/-- An R × G × 1 array repeated B times along its last axis reads, at (r, g, e), the array at (r, g, 0). -/
theorem broadcastTo_ab1_abc_apply {R G B : ℕ} (v : (⟨3, ![R, G, 1]⟩ : Shape).Idx → α)
    (h : (⟨3, ![R, G, 1]⟩ : Shape).Broadcasts ⟨3, ![R, G, B]⟩) (r : Fin R) (g : Fin G) (e : Fin B) :
    broadcastTo ⟨3, ![R, G, B]⟩ v h (ix3 r g e) = v (ix3 r g (0 : Fin 1)) := by
  refine broadcastTo_apply v h (ix3 r g e) (ix3 r g (0 : Fin 1)) fun ax => ?_
  match ax with
  | ⟨0, _⟩ =>
    show r.val = if R = 1 then 0 else r.val
    split
    · have := r.isLt; omega
    · rfl
  | ⟨1, _⟩ =>
    show g.val = if G = 1 then 0 else g.val
    split
    · have := g.isLt; omega
    · rfl
  | ⟨2, _⟩ =>
    show (0 : ℕ) = if (1 : ℕ) = 1 then 0 else e.val
    rw [if_pos rfl]

/-- An R × 128 × 32 array with its last two axes merged reads, at row r and column k, the array at
    (r, k / 32, k % 32). -/
theorem shapeCast_merge_128_32_apply {R : ℕ} (v : (⟨3, ![R, 128, 32]⟩ : Shape).Idx → α)
    (h : (⟨3, ![R, 128, 32]⟩ : Shape).ShapeCasts ⟨2, ![R, 4096]⟩) (r : Fin R) (k : Fin 4096) :
    shapeCast ⟨2, ![R, 4096]⟩ v h (ix2 r k)
      = v (ix3 r (⟨k.val / 32, by have := k.isLt; omega⟩ : Fin 128) (⟨k.val % 32, by omega⟩ : Fin 32)) :=
  shapeCast_apply v h _ _ (by
    rw [Shape.rowMajor_val_three, Shape.rowMajor_val_two]
    show (r.val * 128 + k.val / 32) * 32 + k.val % 32 = r.val * 4096 + k.val
    omega)

/-- THE CHAIN: a matrix `s` of R rows and 128 columns, given a unit axis, repeated 32 times along it and flattened to
    R rows and 4096 columns, reads at row r, column k the entry of `s` at row r, column k / 32. -/
theorem spread32_apply {R : ℕ} (s : (⟨2, ![R, 128]⟩ : Shape).Idx → α)
    (h1 : (⟨2, ![R, 128]⟩ : Shape).ShapeCasts ⟨3, ![R, 128, 1]⟩)
    (h2 : (⟨3, ![R, 128, 1]⟩ : Shape).ShapeCasts ⟨3, ![R, 128, 1]⟩)
    (h3 : (⟨3, ![R, 128, 1]⟩ : Shape).Broadcasts ⟨3, ![R, 128, 32]⟩)
    (h4 : (⟨3, ![R, 128, 32]⟩ : Shape).ShapeCasts ⟨2, ![R, 4096]⟩) (r : Fin R) (k : Fin 4096) :
    shapeCast ⟨2, ![R, 4096]⟩ (broadcastTo ⟨3, ![R, 128, 32]⟩
        (shapeCast ⟨3, ![R, 128, 1]⟩ (shapeCast ⟨3, ![R, 128, 1]⟩ s h1) h2) h3) h4 (ix2 r k)
      = s (ix2 r (⟨k.val / 32, by have := k.isLt; omega⟩ : Fin 128)) := by
  rw [shapeCast_merge_128_32_apply, broadcastTo_ab1_abc_apply, shapeCast_self, shapeCast_ab_ab1_apply]

end Cert.LibGroupScale
-- ==== Proof.Spec.lean ====
/-
  The function both programs compute, index by index, on the extended reals.

  The inputs are a batch of 2 matrices x[b] of 4096 rows and 4096 columns, a weight matrix w of 4096 rows and 4096
  columns, a bias of 4096 entries, and one scale per run of 32 consecutive columns: xs[b] has 4096 rows and 128
  columns, ws has 4096 rows and 128 columns. Column k of a row belongs to run k / 32. The result at (b, r, q) is

      ( sum over the 4096 columns k of  (x[b, r, k] * xs[b, r, k / 32]) * (w[q, k] * ws[q, k / 32]) )  +  bias[q].

  The sum runs over the columns in both programs in one order and with the factors grouped in one way, so no law of
  the extended reals beyond reading both sides at an index is needed, and no input has to be finite.
-/
import Idealize.ShloMosaic.PureOps.Ideal
import Idealize.ShloMosaic.Lib.ValueIdx

noncomputable section

namespace Cert.ScaledLinear

open Idealize.ShloMosaic Idealize.ShloMosaic.ValueIdx

/-- The run of 32 consecutive columns that column `k` lies in. -/
def run32 (k : Fin 4096) : Fin 128 := ⟨k.val / 32, by have := k.isLt; omega⟩

theorem run32_val (k : Fin 4096) : (run32 k).val = k.val / 32 := rfl

/-- The result at batch `b`, row `r`, output column `q`: the scaled row of `x[b]` against the scaled row `q` of
    `w`, summed over the columns, plus the bias of `q`. -/
def entry (x : (⟨3, ![2, 4096, 4096]⟩ : Shape).Idx → EReal) (w : (⟨2, ![4096, 4096]⟩ : Shape).Idx → EReal)
    (bias : (⟨1, ![4096]⟩ : Shape).Idx → EReal) (xs : (⟨3, ![2, 4096, 128]⟩ : Shape).Idx → EReal)
    (ws : (⟨2, ![4096, 128]⟩ : Shape).Idx → EReal) (b : Fin 2) (r q : Fin 4096) : EReal :=
  (∑ k : Fin 4096, (x (ix3 b r k) * xs (ix3 b r (run32 k))) * (w (ix2 q k) * ws (ix2 q (run32 k)))) + bias (ix1 q)

/-- The whole result array. -/
def result (x : (⟨3, ![2, 4096, 4096]⟩ : Shape).Idx → EReal) (w : (⟨2, ![4096, 4096]⟩ : Shape).Idx → EReal)
    (bias : (⟨1, ![4096]⟩ : Shape).Idx → EReal) (xs : (⟨3, ![2, 4096, 128]⟩ : Shape).Idx → EReal)
    (ws : (⟨2, ![4096, 128]⟩ : Shape).Idx → EReal) : (⟨3, ![2, 4096, 4096]⟩ : Shape).Idx → EReal :=
  fun i => entry x w bias xs ws (i 0) (i 1) (i 2)

theorem result_ix3 (x : (⟨3, ![2, 4096, 4096]⟩ : Shape).Idx → EReal) (w : (⟨2, ![4096, 4096]⟩ : Shape).Idx → EReal)
    (bias : (⟨1, ![4096]⟩ : Shape).Idx → EReal) (xs : (⟨3, ![2, 4096, 128]⟩ : Shape).Idx → EReal)
    (ws : (⟨2, ![4096, 128]⟩ : Shape).Idx → EReal) (b : Fin 2) (r q : Fin 4096) :
    result x w bias xs ws (ix3 b r q) = entry x w bias xs ws b r q := rfl

end Cert.ScaledLinear

end
-- ==== Proof.Payload.lean ====
/-
  What the kernel's body stores, read at one entry.

  At a grid point the body holds a block of 128 rows of x[b] (with their 128 scales each), a block of 256 rows of w (with
  their scales) and the 256 bias entries of those rows of w. It spreads each scale over its run of 32 columns, multiplies,
  contracts the 4096 columns of every row of the first block against every row of the second, and adds the bias along the
  rows. So the stored entry at block row r, block column q is

      ( sum over k of (x-block[r, k] * xs-block[r, k / 32]) * (w-block[q, k] * ws-block[q, k / 32]) ) + bias-block[q].

  The change of float format before the contraction is the identity on the extended reals, and the contraction into a
  zero accumulator is the plain sum.
-/
import proofs.«100998_j57784490000873_2_alg».proof.Proof.Gen.KernelIdeal.Skeleton
import proofs.«100998_j57784490000873_2_alg».proof.Proof.LibGroupScale
import proofs.«100998_j57784490000873_2_alg».proof.Proof.Spec
import Idealize.ShloMosaic.Lib.ValueLayout
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx
open Cert.ScaledLinear Cert.LibGroupScale

/-- On its non-contracted axis the left operand's index is the output's row. -/
theorem lhs_row (i : S128x256.Idx) (p : dot_S128x4096_S256x4096_S128x256_1_1_0_0_n_n.contr.Idx) :
    (dot_S128x4096_S256x4096_S128x256_1_1_0_0_n_n.lhsIdx i p 0).val = (i 0).val := by
  unfold DotDims.lhsIdx
  rw [dif_neg (show ¬(0 : Fin S128x4096.rank) ∈ dot_S128x4096_S256x4096_S128x256_1_1_0_0_n_n.lhsBatch by decide),
    dif_pos (show (0 : Fin S128x4096.rank) ∈ dot_S128x4096_S256x4096_S128x256_1_1_0_0_n_n.lhsNonContracting by decide)]
  rfl

/-- On its non-contracted axis the right operand's index is the output's column. -/
theorem rhs_row (i : S128x256.Idx) (p : dot_S128x4096_S256x4096_S128x256_1_1_0_0_n_n.contr.Idx) :
    (dot_S128x4096_S256x4096_S128x256_1_1_0_0_n_n.rhsIdx i p 0).val = (i 1).val := by
  unfold DotDims.rhsIdx
  rw [dif_neg (show ¬(0 : Fin S256x4096.rank) ∈ dot_S128x4096_S256x4096_S128x256_1_1_0_0_n_n.rhsBatch by decide),
    dif_pos (show (0 : Fin S256x4096.rank) ∈ dot_S128x4096_S256x4096_S128x256_1_1_0_0_n_n.rhsNonContracting by decide)]
  rfl

/-- The body's contraction into a zero accumulator, at row r and column q, is the sum over the 4096 columns k of
    row r of the left operand times row q of the right operand. -/
theorem matmul_rows_apply (lhs : FVec Ideal S128x4096 .bf16) (rhs : FVec Ideal S256x4096 .bf16) (r : Fin 128) (q : Fin 256) :
    matmul dot_S128x4096_S256x4096_S128x256_1_1_0_0_n_n none lhs rhs (constant (F := Ideal) S128x256 .f32 0x00000000#32) (ix2 r q)
      = ∑ k : Fin 4096, lhs (ix2 r k) * rhs (ix2 q k) := by
  refine (Ideal.matmul_constant_zero_apply dot_S128x4096_S256x4096_S128x256_1_1_0_0_n_n none lhs rhs (ix2 r q)).trans ?_
  rw [← Equiv.sum_comp (contrEquiv1 dot_S128x4096_S256x4096_S128x256_1_1_0_0_n_n 4096 rfl rfl).symm]
  refine Finset.sum_congr rfl fun k _ => ?_
  have hk := contrEquiv1_symm_val dot_S128x4096_S256x4096_S128x256_1_1_0_0_n_n 4096 rfl rfl k
  have el : dot_S128x4096_S256x4096_S128x256_1_1_0_0_n_n.lhsIdx (ix2 r q)
      ((contrEquiv1 dot_S128x4096_S256x4096_S128x256_1_1_0_0_n_n 4096 rfl rfl).symm k) = ix2 r k :=
    funext fun a => Fin.ext (by
      match a with
      | ⟨0, _⟩ => exact lhs_row _ _
      | ⟨1, _⟩ => exact (dot_S128x4096_S256x4096_S128x256_1_1_0_0_n_n.lhsIdx_val_of_single rfl _ _).trans hk)
  have er : dot_S128x4096_S256x4096_S128x256_1_1_0_0_n_n.rhsIdx (ix2 r q)
      ((contrEquiv1 dot_S128x4096_S256x4096_S128x256_1_1_0_0_n_n 4096 rfl rfl).symm k) = ix2 q k :=
    funext fun a => Fin.ext (by
      match a with
      | ⟨0, _⟩ => exact rhs_row _ _
      | ⟨1, _⟩ => exact (dot_S128x4096_S256x4096_S128x256_1_1_0_0_n_n.rhsIdx_val_of_single rfl _ _).trans hk)
  rw [el, er]

/-- THE STORED ENTRY at block row r, block column q, from the five blocks the body loads. -/
theorem pay_apply (v0 : Vec Ideal S1x128x4096 .f32) (v2 : Vec Ideal S256x4096 .f32) (v3 : Vec Ideal S1x128x128 .f32)
    (v5 : Vec Ideal S256x128 .f32) (v19 : Vec Ideal S1x256 .f32) (r : Fin 128) (q : Fin 256) :
    k0_pay1 v0 v2 v3 v5 v19 (ix3 (0 : Fin 1) r q)
      = (∑ k : Fin 4096, (v0 (ix3 (0 : Fin 1) r k) * v3 (ix3 (0 : Fin 1) r (run32 k))) * (v2 (ix2 q k) * v5 (ix2 q (run32 k))))
        + v19 (ix2 (0 : Fin 1) q) := by
  unfold k0_pay1
  refine (shapeCast_ab_1ab_apply _ _ (0 : Fin 1) r q).trans ?_
  rw [addf_apply, matmul_rows_apply, broadcastTo_1b_ab_apply, shapeCast_self v19]
  refine congrArg (fun s => s + v19 (ix2 (0 : Fin 1) q)) (Finset.sum_congr rfl fun k _ => ?_)
  rw [truncf_apply, truncf_apply, mulf_apply, mulf_apply, shapeCast_1ab_ab_apply, spread32_apply, spread32_apply,
    shapeCast_1ab_ab_apply]
  rfl

/-- THE STORED ENTRY AGAINST THE ARRAYS: if the five loaded blocks are what the arrays hold on row (b, R) of x and its
    scales, on row Q of w and its scales, and at entry Q of the bias — block row r being array row R, block column q being
    output column Q — then the stored entry at (r, q) is the specification's entry at (b, R, Q). -/
theorem block_entry (A0 : S2x4096x4096.Idx → EReal) (A1 : S4096x4096.Idx → EReal) (B : S4096.Idx → EReal)
    (A3 : S2x4096x128.Idx → EReal) (A4 : S4096x128.Idx → EReal)
    (x0 : Vec Ideal S1x128x4096 .f32) (x1 : Vec Ideal S256x4096 .f32) (x2 : Vec Ideal S1x256 .f32)
    (x3 : Vec Ideal S1x128x128 .f32) (x4 : Vec Ideal S256x128 .f32)
    (b : Fin 2) (R Q : Fin 4096) (r : Fin 128) (q : Fin 256)
    (h0 : ∀ k : Fin 4096, x0 (ix3 (0 : Fin 1) r k) = A0 (ix3 b R k))
    (h1 : ∀ k : Fin 4096, x1 (ix2 q k) = A1 (ix2 Q k))
    (h2 : x2 (ix2 (0 : Fin 1) q) = B (ix1 Q))
    (h3 : ∀ g : Fin 128, x3 (ix3 (0 : Fin 1) r g) = A3 (ix3 b R g))
    (h4 : ∀ g : Fin 128, x4 (ix2 q g) = A4 (ix2 Q g)) :
    k0_pay1 x0 x1 x3 x4 x2 (ix3 (0 : Fin 1) r q) = entry A0 A1 B A3 A4 b R Q := by
  rw [pay_apply, h2]
  unfold entry
  refine congrArg (fun s => s + B (ix1 Q)) (Finset.sum_congr rfl fun k _ => ?_)
  rw [h0, h1, h3, h4]

end Cert.KernelIdeal.BlockValue

end
-- ==== Proof.KernelValue.lean ====
/-
  The kernel's result array is the specification of its arguments.

  The grid has 16 × 2 × 32 points, the last axis fastest: point t has coordinates (t / 64, t / 32 % 2, t % 32) = (K, b, I).
  At that point the body reads rows I·128 … I·128 + 127 of x[b] and of its scales, rows K·256 … K·256 + 255 of w and of its
  scales, and entries K·256 … of the bias (a row vector made from the bias by a reshape before the launch), and it writes
  the 128 × 256 block of the result at batch b, rows from I·128, columns from K·256. By the entry lemma each written
  entry is the specification's entry at its place in the array. Every place (b, R, Q) of the result lies in the block of
  the point with K = Q / 256 and I = R / 128, so after the run the whole array is the specification.
-/
import proofs.«100998_j57784490000873_2_alg».proof.Proof.Gen.KernelIdeal.Value
import proofs.«100998_j57784490000873_2_alg».proof.Proof.Payload
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.ScaledLinear Cert.KernelIdeal.BlockValue

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The specification of the five argument arrays as launched. -/
def out (c : Dev nD) : S2x4096x4096.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The grid has 1024 points. -/
theorem t_lt (t : Fin cfg0.N) : t.val < 1024 :=
  lt_of_lt_of_eq t.isLt (show cfg0.N = 1024 from N_0)

/-- The block index of every window at every point, from the point's position: decided over the grid. -/
theorem idx_facts : ∀ t : Fin cfg0.N,
    win0_5.index t (0 : Fin 3) = t.val / 32 % 2 ∧ win0_5.index t (1 : Fin 3) = t.val % 32 ∧ win0_5.index t (2 : Fin 3) = t.val / 64
    ∧ win0_0.index t (0 : Fin 3) = t.val / 32 % 2 ∧ win0_0.index t (1 : Fin 3) = t.val % 32 ∧ win0_0.index t (2 : Fin 3) = 0
    ∧ win0_1.index t (0 : Fin 2) = t.val / 64 ∧ win0_1.index t (1 : Fin 2) = 0
    ∧ win0_2.index t (0 : Fin 2) = 0 ∧ win0_2.index t (1 : Fin 2) = t.val / 64
    ∧ win0_3.index t (0 : Fin 3) = t.val / 32 % 2 ∧ win0_3.index t (1 : Fin 3) = t.val % 32 ∧ win0_3.index t (2 : Fin 3) = 0
    ∧ win0_4.index t (0 : Fin 2) = t.val / 64 ∧ win0_4.index t (1 : Fin 2) = 0 :=
  (by decide +kernel : ∀ t : Fin grid0.N, _)

/-- The batch of point t's block, -/
def batchOf (t : Fin cfg0.N) : Fin 2 := ⟨t.val / 32 % 2, Nat.mod_lt _ (by decide)⟩
/-- the array row of its block row r, -/
def rowOf (t : Fin cfg0.N) (r : Fin 128) : Fin 4096 := ⟨t.val % 32 * 128 + r.val, by have := r.isLt; omega⟩
/-- and the output column (a row of w) of its block column q. -/
def colOf (t : Fin cfg0.N) (q : Fin 256) : Fin 4096 := ⟨t.val / 64 * 256 + q.val, by have := t_lt t; have := q.isLt; omega⟩

/-- The bias as the region finds it: the row vector the reshape before the launch made of it. -/
theorem bias_row (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-! ## Where each block sits in its array -/

/-- Point t's block of the result, at block position (r, q), is the array's place (batch, row, column) of that point. -/
theorem out_emb (t : Fin cfg0.N) (u : Fin 1) (r : Fin 128) (q : Fin 256) :
    ((cfg0.win 5).blk t).view.emb (ix3 u r q) = ix3 (batchOf t) (rowOf t r) (colOf t q) := by
  obtain ⟨e50, e51, e52, -⟩ := idx_facts t
  have hu : u.val = 0 := by omega
  funext a; apply Fin.ext
  match a with
  | ⟨0, _⟩ => show win0_5.index t (0 : Fin 3) * 1 + 1 * u.val = t.val / 32 % 2; rw [e50, hu]; omega
  | ⟨1, _⟩ => show win0_5.index t (1 : Fin 3) * 128 + 1 * r.val = t.val % 32 * 128 + r.val; rw [e51]; omega
  | ⟨2, _⟩ => show win0_5.index t (2 : Fin 3) * 256 + 1 * q.val = t.val / 64 * 256 + q.val; rw [e52]; omega

/-- The block of x at point t holds whole rows: block row r is array row (batch, row), every column k. -/
theorem x_emb (t : Fin cfg0.N) (u : Fin 1) (r : Fin 128) (k : Fin 4096) :
    ((cfg0.win 0).blk t).view.emb (ix3 u r k) = ix3 (batchOf t) (rowOf t r) k := by
  obtain ⟨-, -, -, e00, e01, e02, -⟩ := idx_facts t
  have hu : u.val = 0 := by omega
  funext a; apply Fin.ext
  match a with
  | ⟨0, _⟩ => show win0_0.index t (0 : Fin 3) * 1 + 1 * u.val = t.val / 32 % 2; rw [e00, hu]; omega
  | ⟨1, _⟩ => show win0_0.index t (1 : Fin 3) * 128 + 1 * r.val = t.val % 32 * 128 + r.val; rw [e01]; omega
  | ⟨2, _⟩ => show win0_0.index t (2 : Fin 3) * 4096 + 1 * k.val = k.val; rw [e02]; omega

/-- The block of w at point t holds whole rows: block row q is array row colOf t q. -/
theorem w_emb (t : Fin cfg0.N) (q : Fin 256) (k : Fin 4096) :
    ((cfg0.win 1).blk t).view.emb (ix2 q k) = ix2 (colOf t q) k := by
  obtain ⟨-, -, -, -, -, -, e10, e11, -⟩ := idx_facts t
  funext a; apply Fin.ext
  match a with
  | ⟨0, _⟩ => show win0_1.index t (0 : Fin 2) * 256 + 1 * q.val = t.val / 64 * 256 + q.val; rw [e10]; omega
  | ⟨1, _⟩ => show win0_1.index t (1 : Fin 2) * 4096 + 1 * k.val = k.val; rw [e11]; omega

/-- The block of the bias row vector at point t: entry q is entry colOf t q. -/
theorem bias_emb (t : Fin cfg0.N) (u : Fin 1) (q : Fin 256) :
    ((cfg0.win 2).blk t).view.emb (ix2 u q) = ix2 (0 : Fin 1) (colOf t q) := by
  obtain ⟨-, -, -, -, -, -, -, -, e20, e21, -⟩ := idx_facts t
  have hu : u.val = 0 := by omega
  funext a; apply Fin.ext
  match a with
  | ⟨0, _⟩ => show win0_2.index t (0 : Fin 2) * 1 + 1 * u.val = 0; rw [e20, hu]
  | ⟨1, _⟩ => show win0_2.index t (1 : Fin 2) * 256 + 1 * q.val = t.val / 64 * 256 + q.val; rw [e21]; omega

/-- The block of the scales of x at point t: block row r is array row (batch, row), every run g. -/
theorem xs_emb (t : Fin cfg0.N) (u : Fin 1) (r : Fin 128) (g : Fin 128) :
    ((cfg0.win 3).blk t).view.emb (ix3 u r g) = ix3 (batchOf t) (rowOf t r) g := by
  obtain ⟨-, -, -, -, -, -, -, -, -, -, e30, e31, e32, -⟩ := idx_facts t
  have hu : u.val = 0 := by omega
  funext a; apply Fin.ext
  match a with
  | ⟨0, _⟩ => show win0_3.index t (0 : Fin 3) * 1 + 1 * u.val = t.val / 32 % 2; rw [e30, hu]; omega
  | ⟨1, _⟩ => show win0_3.index t (1 : Fin 3) * 128 + 1 * r.val = t.val % 32 * 128 + r.val; rw [e31]; omega
  | ⟨2, _⟩ => show win0_3.index t (2 : Fin 3) * 128 + 1 * g.val = g.val; rw [e32]; omega

/-- The block of the scales of w at point t: block row q is array row colOf t q, every run g. -/
theorem ws_emb (t : Fin cfg0.N) (q : Fin 256) (g : Fin 128) :
    ((cfg0.win 4).blk t).view.emb (ix2 q g) = ix2 (colOf t q) g := by
  obtain ⟨-, -, -, -, -, -, -, -, -, -, -, -, -, e40, e41⟩ := idx_facts t
  funext a; apply Fin.ext
  match a with
  | ⟨0, _⟩ => show win0_4.index t (0 : Fin 2) * 256 + 1 * q.val = t.val / 64 * 256 + q.val; rw [e40]; omega
  | ⟨1, _⟩ => show win0_4.index t (1 : Fin 2) * 128 + 1 * g.val = g.val; rw [e41]; omega

/-! ## What a point writes back -/

/-- WHAT POINT t WRITES BACK is block t of the specification of the arguments. -/
theorem flushed_eq (c : Dev nD) (t : Fin cfg0.N) :
    (dats m 0 c).flushed 5 t = ((cfg0.win 5).blk t).view.read (Elt Ideal) (out m c) := by
  rw [Value.flushed5]
  unfold out0_5
  rw [View.canon_unit_zero zeros3]
  simp only [View.ld_unit_zero (S := S1x128x4096) zeros3, View.ld_unit_zero (S := S256x4096) zeros2,
    View.ld_unit_zero (S := S1x128x128) zeros3, View.ld_unit_zero (S := S256x128) zeros2,
    View.ld_unit_zero (S := S1x256) zeros2]
  funext j
  have hj0 : (j 0).val < 1 := (j 0).isLt
  have hj1 : (j 1).val < 128 := (j 1).isLt
  have hj2 : (j 2).val < 256 := (j 2).isLt
  obtain ⟨r, q, rfl⟩ : ∃ (r : Fin 128) (q : Fin 256), j = ix3 (0 : Fin 1) r q :=
    ⟨⟨(j 1).val, hj1⟩, ⟨(j 2).val, hj2⟩, funext fun a => Fin.ext (by
      match a with
      | ⟨0, _⟩ => show (j 0).val = 0; omega
      | ⟨1, _⟩ => rfl
      | ⟨2, _⟩ => rfl)⟩
  show k0_pay1 (iblk m c 0 t) (iblk m c 1 t) (iblk m c 3 t) (iblk m c 4 t) (iblk m c 2 t) (ix3 (0 : Fin 1) r q)
    = out m c (((cfg0.win 5).blk t).view.emb (ix3 (0 : Fin 1) r q))
  rw [out_emb]
  show _ = entry _ _ _ _ _ (batchOf t) (rowOf t r) (colOf t q)
  refine block_entry (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t)
    (batchOf t) (rowOf t r) (colOf t q) r q ?_ ?_ ?_ ?_ ?_
  · intro k
    show V m c main_arg0 (((cfg0.win 0).blk t).view.emb (ix3 (0 : Fin 1) r k)) = _
    rw [x_emb, V_main_arg0]
  · intro k
    show V m c main_arg1 (((cfg0.win 1).blk t).view.emb (ix2 q k)) = _
    rw [w_emb, V_main_arg1]
  · show V m c main_v0 (((cfg0.win 2).blk t).view.emb (ix2 (0 : Fin 1) q)) = _
    rw [bias_emb]
    exact (congrFun (bias_row m c) _).trans (shapeCast_a_1a_apply _ _ _ _)
  · intro g
    show V m c main_arg3 (((cfg0.win 3).blk t).view.emb (ix3 (0 : Fin 1) r g)) = _
    rw [xs_emb, V_main_arg3]
  · intro g
    show V m c main_arg4 (((cfg0.win 4).blk t).view.emb (ix2 q g)) = _
    rw [ws_emb, V_main_arg4]

/-! ## The blocks cover the array -/

/-- A place of the result is in point t's block iff each coordinate is in the block's range on its axis. -/
theorem mem_blk (t : Fin cfg0.N) (i : S2x4096x4096.Idx) :
    i ∈ ((cfg0.win 5).blk t).view.set ↔ ∀ a : Fin 3, win0_5.index t a * S1x128x256.size a ≤ (i a).val
      ∧ (i a).val < win0_5.index t a * S1x128x256.size a + S1x128x256.size a := by
  show i ∈ ((View.whole main_v1).slice (win0_5.rect t)).set ↔ _
  rw [View.set_slice_whole, Rect.mem_set_unit]
  exact Iff.rfl

/-- Every place (b, R, Q) of the result is in the block of the point with coordinates (Q / 256, b, R / 128). -/
theorem cover (i : S2x4096x4096.Idx) :
    ∃ t : Fin cfg0.N, (cfg0.win 5).flush t = true ∧ i ∈ ((cfg0.win 5).blk t).view.set := by
  have h0 : (i 0).val < 2 := (i 0).isLt
  have h1 : (i 1).val < 4096 := (i 1).isLt
  have h2 : (i 2).val < 4096 := (i 2).isLt
  obtain ⟨t, ht⟩ : ∃ t : Fin cfg0.N, t.val = ((i 2).val / 256 * 2 + (i 0).val) * 32 + (i 1).val / 128 :=
    ⟨⟨((i 2).val / 256 * 2 + (i 0).val) * 32 + (i 1).val / 128, by rw [show cfg0.N = 1024 from N_0]; omega⟩, rfl⟩
  obtain ⟨e50, e51, e52, -⟩ := idx_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    rw [e50, ht]; omega
  | ⟨1, _⟩ =>
    show win0_5.index t (1 : Fin 3) * 128 ≤ (i 1).val ∧ (i 1).val < win0_5.index t (1 : Fin 3) * 128 + 128
    rw [e51, ht]; omega
  | ⟨2, _⟩ =>
    show win0_5.index t (2 : Fin 3) * 256 ≤ (i 2).val ∧ (i 2).val < win0_5.index t (2 : Fin 3) * 256 + 256
    rw [e52, ht]; omega

/-! ## The array after the run, and the run -/

/-- THE RESULT ARRAY after the run is the specification of the arguments as launched. -/
theorem final (c : Dev nD) : (dats m 0 c).arrAt 5 cfg0.N = out m c :=
  (dats m 0 c).arrAt_eq_of_cover 5 (out m c) (fun t _ => flushed_eq m c t) cover

/-- Every weakly fair execution of the kernel's program terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference, read at an index, is the specification.

  The reference splits every row of x[b] and of w into 128 runs of 32 columns, multiplies run g by the row's g-th scale,
  puts the runs back side by side, contracts the columns of the two scaled arrays and adds the bias along the last axis.
  Splitting a row into runs and merging the runs again are inverse to each other on positions: column k of a row is
  entry k % 32 of run k / 32. So the composed index maps of the reference's layout operations are plain coordinates,
  and the reference's result at (b, r, q) is the specification's entry.
-/
import proofs.«100998_j57784490000873_2_alg».proof.Proof.Gen.ReferenceIdeal.Read
import proofs.«100998_j57784490000873_2_alg».proof.Proof.Spec

noncomputable section

namespace Cert.ReferenceIdeal.RefValue

open Cert.ReferenceIdeal Cert.ReferenceIdeal.Read Idealize.ShloMosaic Idealize.ShloMosaic.ValueIdx
open Cert.ScaledLinear

/-- Merging the runs of a row of x[b] and splitting them again: the entry of x read for column k is (b, r, k). -/
theorem x_idx (b : Fin 2) (r q k : Fin 4096) :
    idx_main_v0 (idx_main_v4 (lidx_main_v10 (ix3 b r q) k)) = ix3 b r k := by
  have hb := b.isLt; have hr := r.isLt; have hk := k.isLt
  funext a; apply Fin.ext
  match a with
  | ⟨0, _⟩ => show ((((((b.val * 4096 + r.val) * 4096 + k.val) / 16777216) * 4096 + ((b.val * 4096 + r.val) * 4096 + k.val) / 4096 % 4096) * 128 + ((b.val * 4096 + r.val) * 4096 + k.val) / 32 % 128) * 32 + ((b.val * 4096 + r.val) * 4096 + k.val) % 32) / 16777216 = b.val; omega
  | ⟨1, _⟩ => show ((((((b.val * 4096 + r.val) * 4096 + k.val) / 16777216) * 4096 + ((b.val * 4096 + r.val) * 4096 + k.val) / 4096 % 4096) * 128 + ((b.val * 4096 + r.val) * 4096 + k.val) / 32 % 128) * 32 + ((b.val * 4096 + r.val) * 4096 + k.val) % 32) / 4096 % 4096 = r.val; omega
  | ⟨2, _⟩ => show ((((((b.val * 4096 + r.val) * 4096 + k.val) / 16777216) * 4096 + ((b.val * 4096 + r.val) * 4096 + k.val) / 4096 % 4096) * 128 + ((b.val * 4096 + r.val) * 4096 + k.val) / 32 % 128) * 32 + ((b.val * 4096 + r.val) * 4096 + k.val) % 32) % 4096 = k.val; omega

/-- The scale of x read for column k is that of run k / 32 of row (b, r). -/
theorem xs_idx (b : Fin 2) (r q k : Fin 4096) :
    idx_main_v1 (idx_main_v2 (idx_main_v4 (lidx_main_v10 (ix3 b r q) k))) = ix3 b r (run32 k) := by
  have hb := b.isLt; have hr := r.isLt; have hk := k.isLt
  funext a; apply Fin.ext
  match a with
  | ⟨0, _⟩ => show ((b.val * 4096 + r.val) * 4096 + k.val) / 16777216 = b.val; omega
  | ⟨1, _⟩ => show ((b.val * 4096 + r.val) * 4096 + k.val) / 4096 % 4096 = r.val; omega
  | ⟨2, _⟩ => show ((b.val * 4096 + r.val) * 4096 + k.val) / 32 % 128 = k.val / 32; omega

/-- The entry of w read for output column q and column k is (q, k). -/
theorem w_idx (b : Fin 2) (r q k : Fin 4096) :
    idx_main_v5 (idx_main_v9 (ridx_main_v10 (ix3 b r q) k)) = ix2 q k := by
  have hq := q.isLt; have hk := k.isLt
  funext a; apply Fin.ext
  match a with
  | ⟨0, _⟩ => show ((((q.val * 4096 + k.val) / 4096) * 128 + (q.val * 4096 + k.val) / 32 % 128) * 32 + (q.val * 4096 + k.val) % 32) / 4096 = q.val; omega
  | ⟨1, _⟩ => show ((((q.val * 4096 + k.val) / 4096) * 128 + (q.val * 4096 + k.val) / 32 % 128) * 32 + (q.val * 4096 + k.val) % 32) % 4096 = k.val; omega

/-- The scale of w read for column k is that of run k / 32 of row q. -/
theorem ws_idx (b : Fin 2) (r q k : Fin 4096) :
    idx_main_v6 (idx_main_v7 (idx_main_v9 (ridx_main_v10 (ix3 b r q) k))) = ix2 q (run32 k) := by
  have hq := q.isLt; have hk := k.isLt
  funext a; apply Fin.ext
  match a with
  | ⟨0, _⟩ => show (q.val * 4096 + k.val) / 4096 = q.val; omega
  | ⟨1, _⟩ => show (q.val * 4096 + k.val) / 32 % 128 = k.val / 32; omega

/-- The bias entry added at (b, r, q) is that of q. -/
theorem bias_idx (b : Fin 2) (r q : Fin 4096) : idx_main_v11 (idx_main_v12 (ix3 b r q)) = ix1 q := by
  funext a; apply Fin.ext
  match a with
  | ⟨0, _⟩ => rfl

/-- THE REFERENCE IS THE SPECIFICATION: the last stage of the reference's run, as a function of the five arguments. -/
theorem ref_eq (x0 : (⟨S2x4096x4096, .f32⟩ : BufTy).Contents (Elt Ideal)) (x1 : (⟨S4096x4096, .f32⟩ : BufTy).Contents (Elt Ideal))
    (x2 : (⟨S4096, .f32⟩ : BufTy).Contents (Elt Ideal)) (x3 : (⟨S2x4096x128, .f32⟩ : BufTy).Contents (Elt Ideal))
    (x4 : (⟨S4096x128, .f32⟩ : BufTy).Contents (Elt Ideal)) :
    val_main_v13 (F := Ideal) x0 x1 x2 x3 x4 = result x0 x1 x2 x3 x4 := by
  funext i
  obtain ⟨b, r, q, rfl⟩ : ∃ (b : Fin 2) (r q : Fin 4096), i = ix3 b r q := ⟨i 0, i 1, i 2, eq_ix3 i⟩
  rw [result_ix3, val_main_v13_apply, val_main_v10_apply, val_main_v12_apply, val_main_v11_apply, bias_idx]
  unfold entry
  refine congrArg (fun s => s + x2 (ix1 q)) (Finset.sum_congr rfl fun k _ => ?_)
  rw [val_main_v4_apply, val_main_v3_apply, val_main_v0_apply, val_main_v2_apply, val_main_v1_apply,
    val_main_v9_apply, val_main_v8_apply, val_main_v5_apply, val_main_v7_apply, val_main_v6_apply,
    x_idx, xs_idx, w_idx, ws_idx]
  rfl

end Cert.ReferenceIdeal.RefValue

end
-- ==== Proof.lean ====
/-
  A linear layer on block-scaled operands: out[b, r, q] = Σ_k (x[b, r, k] · xs[b, r, k / 32]) · (w[q, k] · ws[q, k / 32]) + bias[q],
  for 2 batches of 4096 rows, 4096 columns k and 4096 output columns q, one scale per run of 32 consecutive columns.

  The kernel computes it tile by tile over a grid of 16 × 2 × 32 points: at a point it holds 128 rows of x[b] and 256 rows
  of w with their scales, spreads every scale over its run of 32 columns, multiplies, rounds to a narrower float format
  (the identity on the extended reals), contracts the 4096 columns of each pair of rows into a zero accumulator and adds
  the bias. The reference splits the rows of x and w into runs, scales the runs, merges them again, contracts the columns
  and adds the bias. Read at an index, both are the sum above, over the same columns in the same order and with the same
  grouping of the four factors, so the two results are equal on all extended reals; finiteness of the inputs is not used.

  Spec.lean states the function; RefValue.lean shows the reference's last stage is that function; Payload.lean reads the
  kernel body's stored term at an entry; KernelValue.lean places every tile in the result array and shows the tiles cover
  it. Here the two runs are set side by side. Nothing was rewritten between the kernel as printed and its reading on the
  extended reals, so that conjunct is trivial; the three frames are the programs' runs with the results dropped.
-/
import proofs.«100998_j57784490000873_2_alg».proof.Defs
import proofs.«100998_j57784490000873_2_alg».proof.Proof.Gen.Kernel
import proofs.«100998_j57784490000873_2_alg».proof.Proof.Gen.Kernel.Skeleton
import proofs.«100998_j57784490000873_2_alg».proof.Proof.Gen.Kernel.Launch
import proofs.«100998_j57784490000873_2_alg».proof.Proof.Gen.Kernel.Points
import proofs.«100998_j57784490000873_2_alg».proof.Proof.Gen.Kernel.Frame
import proofs.«100998_j57784490000873_2_alg».proof.Proof.Gen.KernelIdeal
import proofs.«100998_j57784490000873_2_alg».proof.Proof.Gen.KernelIdeal.Skeleton
import proofs.«100998_j57784490000873_2_alg».proof.Proof.Gen.KernelIdeal.Launch
import proofs.«100998_j57784490000873_2_alg».proof.Proof.Gen.KernelIdeal.Points
import proofs.«100998_j57784490000873_2_alg».proof.Proof.Gen.KernelIdeal.Frame
import proofs.«100998_j57784490000873_2_alg».proof.Proof.Gen.ReferenceIdeal
import proofs.«100998_j57784490000873_2_alg».proof.Proof.Gen.KernelIdeal.Value
import proofs.«100998_j57784490000873_2_alg».proof.Proof.Gen.ReferenceIdeal.Run
import proofs.«100998_j57784490000873_2_alg».proof.Proof.Gen.ReferenceIdeal.Read
import proofs.«100998_j57784490000873_2_alg».proof.Proof.Gen.Pre_finite_inputs
import proofs.«100998_j57784490000873_2_alg».proof.Proof.KernelValue
import proofs.«100998_j57784490000873_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the printed kernel and its reading on the extended reals. -/
theorem preserves : Cert.preserves_Kernel_KernelIdeal := trivial

/-- From memories that agree on the five arguments, the kernel's result array ends at the scaled sum of products plus
    bias of its arguments, and the reference's result at its last stage, which is the same function of the same
    arguments. -/
theorem algebraic : Cert.algebraic_KernelIdeal_ReferenceIdeal := by
  intro m ρ m' ρ' _ hagree
  refine ⟨fun c => Cert.KernelIdeal.ArrayValue.out m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
